-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩
abbrev S400x1280 : Shape := ⟨2, ![400, 1280]⟩
abbrev S1280x128 : Shape := ⟨2, ![1280, 128]⟩
abbrev S400x1040 : Shape := ⟨2, ![400, 1040]⟩
abbrev S1040x128 : Shape := ⟨2, ![1040, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | .local _ .vmem, ⟨6, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x1280_0_0 : ∀ a, (![0, 0] : Fin 2 → Nat) a + S400x1280.size a ≤ S400x10000.size a
  h_S400x1280 : 0 < S400x1280.numel
  inb_S10000x128_S1280x128_0_0 : ∀ a, (![0, 0] : Fin 2 → Nat) a + S1280x128.size a ≤ S10000x128.size a
  h_S1280x128 : 0 < S1280x128.numel
  inb_S400x10000_S400x1280_0_1280 : ∀ a, (![0, 1280] : Fin 2 → Nat) a + S400x1280.size a ≤ S400x10000.size a
  inb_S10000x128_S1280x128_1280_0 : ∀ a, (![1280, 0] : Fin 2 → Nat) a + S1280x128.size a ≤ S10000x128.size a
  inb_S400x10000_S400x1280_0_2560 : ∀ a, (![0, 2560] : Fin 2 → Nat) a + S400x1280.size a ≤ S400x10000.size a
  inb_S10000x128_S1280x128_2560_0 : ∀ a, (![2560, 0] : Fin 2 → Nat) a + S1280x128.size a ≤ S10000x128.size a
  inb_S400x10000_S400x1280_0_3840 : ∀ a, (![0, 3840] : Fin 2 → Nat) a + S400x1280.size a ≤ S400x10000.size a
  inb_S10000x128_S1280x128_3840_0 : ∀ a, (![3840, 0] : Fin 2 → Nat) a + S1280x128.size a ≤ S10000x128.size a
  inb_S400x10000_S400x1280_0_5120 : ∀ a, (![0, 5120] : Fin 2 → Nat) a + S400x1280.size a ≤ S400x10000.size a
  inb_S10000x128_S1280x128_5120_0 : ∀ a, (![5120, 0] : Fin 2 → Nat) a + S1280x128.size a ≤ S10000x128.size a
  inb_S400x10000_S400x1280_0_6400 : ∀ a, (![0, 6400] : Fin 2 → Nat) a + S400x1280.size a ≤ S400x10000.size a
  inb_S10000x128_S1280x128_6400_0 : ∀ a, (![6400, 0] : Fin 2 → Nat) a + S1280x128.size a ≤ S10000x128.size a
  inb_S400x10000_S400x1280_0_7680 : ∀ a, (![0, 7680] : Fin 2 → Nat) a + S400x1280.size a ≤ S400x10000.size a
  inb_S10000x128_S1280x128_7680_0 : ∀ a, (![7680, 0] : Fin 2 → Nat) a + S1280x128.size a ≤ S10000x128.size a
  inb_S400x10000_S400x1040_0_8960 : ∀ a, (![0, 8960] : Fin 2 → Nat) a + S400x1040.size a ≤ S400x10000.size a
  h_S400x1040 : 0 < S400x1040.numel
  inb_S10000x128_S1040x128_8960_0 : ∀ a, (![8960, 0] : Fin 2 → Nat) a + S1040x128.size a ≤ S10000x128.size a
  h_S1040x128 : 0 < S1040x128.numel
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x1280_S1280x128_S400x128_1_0_0_1_n_n_wf : DotDims.WF S400x1280 S1280x128 S400x128 [1] [0] [0] [1] [] []
  dot_S400x1040_S1040x128_S400x128_1_0_0_1_n_n_wf : DotDims.WF S400x1040 S1040x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x1280_S1280x128_S400x128_1_0_0_1_n_n : DotDims S400x1280 S1280x128 S400x128 where
  lhsContracting := [1]
  rhsContracting := [0]
  lhsNonContracting := [0]
  rhsNonContracting := [1]
  lhsBatch := []
  rhsBatch := []
  wf := dot_S400x1280_S1280x128_S400x128_1_0_0_1_n_n_wf
def dot_S400x1040_S1040x128_S400x128_1_0_0_1_n_n : DotDims S400x1040 S1040x128 S400x128 where
  lhsContracting := [1]
  rhsContracting := [0]
  lhsNonContracting := [0]
  rhsNonContracting := [1]
  lhsBatch := []
  rhsBatch := []
  wf := dot_S400x1040_S1040x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The graph-convolution layer as one function of its three argument arrays, index by index, on the extended reals:

      out[i, j] = ∑ₖ adj[i, k] · (∑_d x[k, d] · W[d, j]),

  and the one law of sums the comparison needs: a sum of 10000 terms is the sum of its eight consecutive stretches
  (seven of 1280 terms and a last one of 1040), added left to right. That law holds in any additive commutative monoid
  — only the associativity of `+` and a zero are used —, so on the extended reals it needs no finiteness.
-/
import Idealize.ShloMosaic.PureOps.Ideal
import Idealize.ShloMosaic.Lib.ValueIdx
import Mathlib.Algebra.BigOperators.Fin

noncomputable section

namespace Cert.GraphConv

open Idealize.ShloMosaic Idealize.ShloMosaic.ValueIdx

/-! ## The layer -/

/-- The support matrix `x · W`: entry (k, j) is row `k` of the features against column `j` of the weights. -/
def support (x : (⟨2, ![10000, 128]⟩ : Shape).Idx → EReal) (W : (⟨2, ![128, 128]⟩ : Shape).Idx → EReal)
    (k : Fin 10000) (j : Fin 128) : EReal :=
  ∑ d : Fin 128, x (ix2 k d) * W (ix2 d j)

/-- The layer's result `adj · (x · W)`: entry (i, j) is row `i` of the adjacency against column `j` of the support. -/
def conv (x : (⟨2, ![10000, 128]⟩ : Shape).Idx → EReal) (adj : (⟨2, ![10000, 10000]⟩ : Shape).Idx → EReal)
    (W : (⟨2, ![128, 128]⟩ : Shape).Idx → EReal) : (⟨2, ![10000, 128]⟩ : Shape).Idx → EReal :=
  fun i => ∑ k : Fin 10000, adj (ix2 (i 0) k) * support x W k (i 1)

/-! ## A sum cut into consecutive stretches -/

section Stretches

variable {M : Type*} [AddCommMonoid M] {n : ℕ}

/-- The sum of the `w` terms of `f` from position `o` on. -/
def stretch (f : Fin n → M) (o w : ℕ) (h : o + w ≤ n) : M :=
  ∑ c : Fin w, f ⟨o + c.val, lt_of_lt_of_le (Nat.add_lt_add_left c.isLt o) h⟩

/-- The sum of the first `o` terms of `f`. -/
def initial (f : Fin n → M) (o : ℕ) (h : o ≤ n) : M :=
  ∑ i : Fin o, f ⟨i.val, lt_of_lt_of_le i.isLt h⟩

/-- No terms sum to zero. -/
theorem initial_zero (f : Fin n → M) (h : 0 ≤ n) : initial f 0 h = 0 := by
  unfold initial; exact Finset.sum_of_isEmpty _

/-- The first `o + w` terms are the first `o` followed by the stretch of `w` from `o`. -/
theorem initial_add (f : Fin n → M) (o w : ℕ) (h : o + w ≤ n) :
    initial f (o + w) h = initial f o (le_trans (Nat.le_add_right o w) h) + stretch f o w h := by
  unfold initial stretch
  rw [Fin.sum_univ_add]
  rfl

/-- All the terms are the first `n`. -/
theorem initial_all (f : Fin n → M) : initial f n le_rfl = ∑ k, f k := rfl

/-- A sum of 10000 terms, cut at 1280, 2560, …, 8960: the eight stretches added left to right. -/
theorem sum_eight_stretches (f : Fin 10000 → M) :
    ∑ k, f k
      = stretch f 0 1280 (by norm_num) + stretch f 1280 1280 (by norm_num) + stretch f 2560 1280 (by norm_num)
        + stretch f 3840 1280 (by norm_num) + stretch f 5120 1280 (by norm_num) + stretch f 6400 1280 (by norm_num)
        + stretch f 7680 1280 (by norm_num) + stretch f 8960 1040 (by norm_num) := by
  have e : ∑ k, f k
      = initial f (0 + 1280 + 1280 + 1280 + 1280 + 1280 + 1280 + 1280 + 1040) (by norm_num) := (initial_all f).symm
  rw [e, initial_add, initial_add, initial_add, initial_add, initial_add, initial_add, initial_add, initial_add,
    initial_zero, zero_add]

end Stretches

end Cert.GraphConv

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.Body.lean ====
/-
  One grid point of the kernel, entry by entry, on the extended reals.

  At its first point the kernel fills a scratch array with the support matrix `x · W` (a product into a zero
  accumulator; the two changes of float format are the identity on the extended reals). At every point it then takes
  its block of 400 adjacency rows, cuts the 10000 columns into eight stretches (seven of 1280, one of 1040), multiplies
  each stretch by the matching rows of the scratch, and adds the eight partial products left to right. Entry (p, q) of
  the block it writes is therefore the sum of eight stretch sums, which is the whole sum
  ∑ₖ A[p, k] · s[k, q] over the 10000 columns.
-/
import proofs.«109923_g1580547973936_cont_week2b_921_18_alg».proof.Proof.Gen.KernelIdeal.Skeleton
import proofs.«109923_g1580547973936_cont_week2b_921_18_alg».proof.Proof.Spec
import proofs.«109923_g1580547973936_cont_week2b_921_18_alg».proof.Proof.LibMatmulBlock
import Idealize.ShloMosaic.Lib.Pipeline.FrameBody
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The block a point writes, from its adjacency block and the scratch (at any float instance) -/

section AnyInstance

variable {F : FTy → Type} [FloatOps F]

/-- What a point stores into its output block: the eight partial products of the stretches of the adjacency block `A`
    with the matching rows of the scratch `s`, added left to right — the body's arithmetic over its sixteen loads. -/
def blockOut (A : Vec F S400x10000 .f32) (s : Vec F S10000x128 .bf16) : FVec F S400x128 .f32 :=
  k0_pay1
    (k0_pay3
      (View.ld A (Rect.unit ![0, 0] S400x1280.size inb_S400x10000_S400x1280_0_0))
      (View.ld s (Rect.unit ![0, 0] S1280x128.size inb_S10000x128_S1280x128_0_0))
      (View.ld A (Rect.unit ![0, 1280] S400x1280.size inb_S400x10000_S400x1280_0_1280))
      (View.ld s (Rect.unit ![1280, 0] S1280x128.size inb_S10000x128_S1280x128_1280_0))
      (View.ld A (Rect.unit ![0, 2560] S400x1280.size inb_S400x10000_S400x1280_0_2560))
      (View.ld s (Rect.unit ![2560, 0] S1280x128.size inb_S10000x128_S1280x128_2560_0))
      (View.ld A (Rect.unit ![0, 3840] S400x1280.size inb_S400x10000_S400x1280_0_3840))
      (View.ld s (Rect.unit ![3840, 0] S1280x128.size inb_S10000x128_S1280x128_3840_0))
      (View.ld A (Rect.unit ![0, 5120] S400x1280.size inb_S400x10000_S400x1280_0_5120))
      (View.ld s (Rect.unit ![5120, 0] S1280x128.size inb_S10000x128_S1280x128_5120_0)))
    (k0_pay4 (View.ld A (Rect.unit ![0, 6400] S400x1280.size inb_S400x10000_S400x1280_0_6400)))
    (View.ld s (Rect.unit ![6400, 0] S1280x128.size inb_S10000x128_S1280x128_6400_0))
    (View.ld A (Rect.unit ![0, 7680] S400x1280.size inb_S400x10000_S400x1280_0_7680))
    (View.ld s (Rect.unit ![7680, 0] S1280x128.size inb_S10000x128_S1280x128_7680_0))
    (View.ld A (Rect.unit ![0, 8960] S400x1040.size inb_S400x10000_S400x1040_0_8960))
    (View.ld s (Rect.unit ![8960, 0] S1040x128.size inb_S10000x128_S1040x128_8960_0))

end AnyInstance

/-! ## The same, entry by entry, on the extended reals -/

/-- The scratch the first point fills is the support matrix: entry (k, j) is ∑_d x[k, d] · W[d, j]. -/
theorem scratch_apply (x : Vec Ideal S10000x128 .f32) (W : Vec Ideal S128x128 .f32) (k : Fin 10000) (j : Fin 128) :
    k0_pay2 (F := Ideal) x W (ix2 k j) = GraphConv.support x W k j := by
  unfold k0_pay2
  show shapeCast S10000x128 _ shapeCasts_S10000x128_S10000x128 (ix2 k j) = _
  rw [shapeCast_self]
  exact Cert.LibMatmulBlock.matmul_zero_apply dot_S10000x128_S128x128_S10000x128_1_0_0_1_n_n_wf none _ _ k j

/-- One stretch: the product of columns `o … o + w` of the adjacency block with rows `o … o + w` of the scratch, into
    a zero accumulator, at entry (p, q), is that stretch of the sum ∑ₖ A[p, k] · s[k, q]. -/
theorem stretch_apply (w o : ℕ) (hw : o + w ≤ 10000)
    (wf : DotDims.WF ⟨2, ![400, w]⟩ ⟨2, ![w, 128]⟩ ⟨2, ![400, 128]⟩ [1] [0] [0] [1] [] [])
    (inbA : ∀ a, (![0, o] : Fin 2 → ℕ) a + (![400, w] : Fin 2 → ℕ) a ≤ S400x10000.size a)
    (inbS : ∀ a, (![o, 0] : Fin 2 → ℕ) a + (![w, 128] : Fin 2 → ℕ) a ≤ S10000x128.size a)
    (A : Vec Ideal S400x10000 .f32) (s : Vec Ideal S10000x128 .bf16) (p : Fin 400) (q : Fin 128) :
    matmul (φ₁ := .bf16) (φ₂ := .bf16) (⟨[1], [0], [0], [1], [], [], wf⟩ : DotDims ⟨2, ![400, w]⟩ ⟨2, ![w, 128]⟩ ⟨2, ![400, 128]⟩) none
        (truncf .bf16 (View.ld A (Rect.unit (s := S400x10000) ![0, o] ![400, w] inbA) : FVec Ideal ⟨2, ![400, w]⟩ .f32)
          bitsLt_bf16_f32)
        (View.ld s (Rect.unit (s := S10000x128) ![o, 0] ![w, 128] inbS) : FVec Ideal ⟨2, ![w, 128]⟩ .bf16)
        (constant (F := Ideal) ⟨2, ![400, 128]⟩ .f32 0x00000000#32) (ix2 p q)
      = GraphConv.stretch (fun k : Fin 10000 => A (ix2 p k) * s (ix2 k q)) o w hw := by
  refine (Cert.LibMatmulBlock.matmul_zero_apply (φ₁ := .bf16) (φ₂ := .bf16) wf none _ _ p q).trans ?_
  unfold GraphConv.stretch
  refine Finset.sum_congr rfl fun c _ => ?_
  refine congrArg₂ (· * ·) ?_ ?_
  · show A _ = A _
    congr 1
    funext ax
    apply Fin.ext
    match ax with
    | ⟨0, _⟩ => show 0 + 1 * p.val = p.val; omega
    | ⟨1, _⟩ => show o + 1 * c.val = o + c.val; omega
  · show s _ = s _
    congr 1
    funext ax
    apply Fin.ext
    match ax with
    | ⟨0, _⟩ => show o + 1 * c.val = o + c.val; omega
    | ⟨1, _⟩ => show 0 + 1 * q.val = q.val; omega

/-- Eight equal pairs have equal left-to-right sums. -/
theorem add_eight {a0 a1 a2 a3 a4 a5 a6 a7 b0 b1 b2 b3 b4 b5 b6 b7 : EReal} (h0 : a0 = b0) (h1 : a1 = b1) (h2 : a2 = b2)
    (h3 : a3 = b3) (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-- Entry (p, q) of the block a point writes is the whole sum over the 10000 columns. -/
theorem blockOut_apply (A : Vec Ideal S400x10000 .f32) (s : Vec Ideal S10000x128 .bf16) (p : Fin 400) (q : Fin 128) :
    blockOut (F := Ideal) A s (ix2 p q) = ∑ k : Fin 10000, A (ix2 p k) * s (ix2 k q) := by
  refine Eq.trans ?_ (GraphConv.sum_eight_stretches (fun k : Fin 10000 => A (ix2 p k) * s (ix2 k q))).symm
  exact add_eight
    (stretch_apply 1280 0 (by norm_num) dot_S400x1280_S1280x128_S400x128_1_0_0_1_n_n_wf inb_S400x10000_S400x1280_0_0 inb_S10000x128_S1280x128_0_0 A s p q)
    (stretch_apply 1280 1280 (by norm_num) dot_S400x1280_S1280x128_S400x128_1_0_0_1_n_n_wf inb_S400x10000_S400x1280_0_1280 inb_S10000x128_S1280x128_1280_0 A s p q)
    (stretch_apply 1280 2560 (by norm_num) dot_S400x1280_S1280x128_S400x128_1_0_0_1_n_n_wf inb_S400x10000_S400x1280_0_2560 inb_S10000x128_S1280x128_2560_0 A s p q)
    (stretch_apply 1280 3840 (by norm_num) dot_S400x1280_S1280x128_S400x128_1_0_0_1_n_n_wf inb_S400x10000_S400x1280_0_3840 inb_S10000x128_S1280x128_3840_0 A s p q)
    (stretch_apply 1280 5120 (by norm_num) dot_S400x1280_S1280x128_S400x128_1_0_0_1_n_n_wf inb_S400x10000_S400x1280_0_5120 inb_S10000x128_S1280x128_5120_0 A s p q)
    (stretch_apply 1280 6400 (by norm_num) dot_S400x1280_S1280x128_S400x128_1_0_0_1_n_n_wf inb_S400x10000_S400x1280_0_6400 inb_S10000x128_S1280x128_6400_0 A s p q)
    (stretch_apply 1280 7680 (by norm_num) dot_S400x1280_S1280x128_S400x128_1_0_0_1_n_n_wf inb_S400x10000_S400x1280_0_7680 inb_S10000x128_S1280x128_7680_0 A s p q)
    (stretch_apply 1040 8960 (by norm_num) dot_S400x1040_S1040x128_S400x128_1_0_0_1_n_n_wf inb_S400x10000_S400x1040_0_8960 inb_S10000x128_S1040x128_8960_0 A s p q)

end Cert.KernelIdeal.Body

end
-- ==== Proof.Pieces.lean ====
/-
  What each of the kernel's two control cases leaves behind, as plain values (at any float instance).

  At the grid's first point the body fills the scratch with the support matrix and, reading that scratch back, writes
  its output block from it; at every later point it leaves the scratch as the point before left it and writes its
  output block from that. In both cases the output block is one store over the whole block, so what the block holds
  afterwards is that store's value; the loads behind it read the staged adjacency block and the scratch through
  literal rectangles.
-/
import proofs.«109923_g1580547973936_cont_week2b_921_18_alg».proof.Proof.Gen.KernelIdeal.Frame
import proofs.«109923_g1580547973936_cont_week2b_921_18_alg».proof.Proof.Body
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen Cert.KernelIdeal.Body

variable {F : FTy → Type} [FloatOps F]

/-- Offsets `(0, 0)` are the zero offsets. -/
theorem zero_offsets : (![0, 0] : Fin 2 → Nat) = fun _ => 0 := funext fun a => by fin_cases a <;> rfl

/-- A later point (any but the first) writes its block from the adjacency block it staged and the scratch as it found it. -/
theorem later_block (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x128 .bf16) (h5 : a5.IsWhole)
    (hc : ¬cond0_0 i) (x0 : Vec F S10000x128 .f32) (x1 : Vec F S128x128 .f32) (x2 : Vec F S400x10000 .f32) (xs0 : Vec F S10000x128 .bf16) :
    out0_B_3 c i a1 h1 a2 h2 a3 h3 a4 h4 a5 h5 hc x0 x1 x2 xs0 = blockOut x2 xs0 := by
  unfold out0_B_3
  rw [View.read_writes_eq_canon _ _ _ (cover0_B_3 c i a1 h1 a2 h2 a3 h3 a4 h4 a5 h5 hc x0 x1 x2 xs0)]
  unfold kernelRun0_B
  dsimp only
  sl_unfold_words
  rw [View.canon_unit_zero zero_offsets]
  simp only [View.readAt_eq_ld, h3.read_unread, h5.read_unread]
  rfl

/-- The first point fills the scratch with the product of the two blocks it staged whole. -/
theorem first_scratch (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x128 .bf16) (h5 : a5.IsWhole)
    (hc : cond0_0 i) (x0 : Vec F S10000x128 .f32) (x1 : Vec F S128x128 .f32) (x2 : Vec F S400x10000 .f32) :
    sout0_A_0 c i a1 h1 a2 h2 a3 h3 a4 h4 a5 h5 hc x0 x1 x2 = k0_pay2 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero zero_offsets]
  simp only [View.readAt_eq_ld, h1.read_unread, h2.read_unread, View.ld_unit_zero (S := S10000x128) zero_offsets,
    View.ld_unit_zero (S := S128x128) zero_offsets]

/-- The first point writes its block from the adjacency block it staged and the scratch it has just filled. -/
theorem first_block (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x128 .bf16) (h5 : a5.IsWhole)
    (hc : cond0_0 i) (x0 : Vec F S10000x128 .f32) (x1 : Vec F S128x128 .f32) (x2 : Vec F S400x10000 .f32) :
    out0_A_3 c i a1 h1 a2 h2 a3 h3 a4 h4 a5 h5 hc x0 x1 x2 = blockOut x2 (k0_pay2 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero zero_offsets]
  simp only [View.readAt_eq_ld, h1.read_unread, h2.read_unread, h3.read_unread, View.readCov_eq_canon',
    View.canon_unit_zero (S := S10000x128) zero_offsets, View.ld_unit_zero (S := S10000x128) zero_offsets,
    View.ld_unit_zero (S := S128x128) zero_offsets]
  rfl

end Cert.KernelIdeal.Pieces

end
-- ==== Proof.Sweep.lean ====
/-
  The kernel's result array after its run, on the extended reals: the layer `adj · (x · W)` of the launch contents.

  The grid has 25 points; point `t` stages the whole feature and weight arrays (their block never moves), rows
  `400 t … 400 t + 399` of the adjacency, and writes back rows `400 t … 400 t + 399` of the result. The scratch is
  filled at point 0 with the support matrix and is the same at every later point (by induction on the point), so at
  every point the block written is the adjacency block against the support matrix: entry (p, q) of point `t`'s block
  is ∑ₖ adj[400 t + p, k] · (x · W)[k, q], the layer at row `400 t + p`. The 25 blocks tile the result array.
-/
import proofs.«109923_g1580547973936_cont_week2b_921_18_alg».proof.Proof.Gen.KernelIdeal.Value
import proofs.«109923_g1580547973936_cont_week2b_921_18_alg».proof.Proof.Pieces
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Sweep

open Cert.KernelIdeal Cert.KernelIdeal.Gen Cert.KernelIdeal.Body Cert.KernelIdeal.Pieces

/-! ## The blocks the points stage, and the scratch, at any float instance -/

section AnyInstance

variable {F : FTy → Type} [FloatOps F]
variable (m : (ℓ : Loc nD τ sig) → Buf (Elt F) ℓ)

/-- Where each window's block sits at point `t`: the feature and weight windows at block (0, 0), the adjacency and
    result windows at block (t, 0) — decided over the 25 points. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block staged at any point is the whole feature array. -/
theorem features_block (c : Dev nD) (t : Fin cfg0.N) :
    (iblk m c 0 t : Vec F S10000x128 .f32) = m ((c : Thread nD τ).loc main_arg0) := by
  obtain ⟨e0, e1, -⟩ := block_indices t
  funext j
  unfold iblk
  rw [View.read_apply]
  show V m c main_arg0 _ = m (c.tc.loc main_arg0) _
  show m (c.tc.loc main_arg0) _ = m (c.tc.loc main_arg0) _
  congr 1
  funext a
  apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The weight block staged at any point is the whole weight array. -/
theorem weights_block (c : Dev nD) (t : Fin cfg0.N) :
    (iblk m c 1 t : Vec F S128x128 .f32) = m ((c : Thread nD τ).loc main_arg2) := by
  obtain ⟨-, -, e2, e3, -⟩ := block_indices t
  funext j
  unfold iblk
  rw [View.read_apply]
  show V m c main_arg2 _ = m (c.tc.loc main_arg2) _
  show m (c.tc.loc main_arg2) _ = m (c.tc.loc main_arg2) _
  congr 1
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- Row `p` of the adjacency block staged at point `t` is row `400 t + p` of the adjacency. -/
theorem adjacency_block_apply (c : Dev nD) (t : Fin cfg0.N) (p : Fin 400) (k : Fin 10000) (h : 400 * t.val + p.val < 10000) :
    (iblk m c 2 t : Vec F S400x10000 .f32) (ix2 p k) = m ((c : Thread nD τ).loc main_arg1) (ix2 ⟨400 * t.val + p.val, h⟩ k) := by
  obtain ⟨-, -, -, -, e4, e5, -⟩ := block_indices t
  unfold iblk
  rw [View.read_apply]
  show V m c main_arg1 _ = m (c.tc.loc main_arg1) _
  show m (c.tc.loc main_arg1) _ = m (c.tc.loc main_arg1) _
  congr 1
  funext a
  apply Fin.ext
  match a with
  | ⟨0, _⟩ => show win0_2.index t (0 : Fin 2) * 400 + 1 * p.val = 400 * t.val + p.val; omega
  | ⟨1, _⟩ => show win0_2.index t (1 : Fin 2) * 10000 + 1 * k.val = k.val; omega

/-- The scratch as the first point fills it: the product of the whole feature and weight arrays. -/
def scratch (c : Dev nD) : Vec F S10000x128 .bf16 :=
  k0_pay2 (m ((c : Thread nD τ).loc main_arg0) : Vec F S10000x128 .f32) (m ((c : Thread nD τ).loc main_arg2) : Vec F S128x128 .f32)

/-- The product of the blocks staged at any point is that scratch. -/
theorem scratch_of_blocks (c : Dev nD) (t : Fin cfg0.N) :
    k0_pay2 (iblk m c 0 t : Vec F S10000x128 .f32) (iblk m c 1 t : Vec F S128x128 .f32) = scratch m c :=
  congrArg₂ k0_pay2 (features_block m c t) (weights_block m c t)

/-- After every point the output block holds the point's adjacency block against the scratch, and the scratch is the
    first point's — by induction on the point. -/
theorem outsAt_eq (c : Dev nD) : ∀ (n : ℕ) (h : n < cfg0.N),
    outsAt0 m c n h = (blockOut (iblk m c 2 ⟨n, h⟩ : Vec F S400x10000 .f32) (scratch m c), scratch m c)
  | 0, h => by
    rw [outsAt0_A m c ⟨0, h⟩ rfl]
    refine Prod.ext ?_ ?_
    · dsimp only
      refine (first_block c (grid0.coords ⟨0, h⟩) (ms0_0 ⟨0, h⟩) (hs0_0 ⟨0, h⟩) (ms0_1 ⟨0, h⟩) (hs0_1 ⟨0, h⟩) (ms0_2 ⟨0, h⟩)
        (hs0_2 ⟨0, h⟩) (ms0_3 ⟨0, h⟩) (hs0_3 ⟨0, h⟩) scM0_0 (Memref.isWhole_whole _) ((hcond0_0 ⟨0, h⟩).mpr rfl)
        (iblk m c 0 ⟨0, h⟩) (iblk m c 1 ⟨0, h⟩) (iblk m c 2 ⟨0, h⟩)).trans ?_
      exact congrArg (blockOut (iblk m c 2 ⟨0, h⟩ : Vec F S400x10000 .f32)) (scratch_of_blocks m c ⟨0, h⟩)
    · dsimp only
      exact (first_scratch c (grid0.coords ⟨0, h⟩) (ms0_0 ⟨0, h⟩) (hs0_0 ⟨0, h⟩) (ms0_1 ⟨0, h⟩) (hs0_1 ⟨0, h⟩) (ms0_2 ⟨0, h⟩)
        (hs0_2 ⟨0, h⟩) (ms0_3 ⟨0, h⟩) (hs0_3 ⟨0, h⟩) scM0_0 (Memref.isWhole_whole _) ((hcond0_0 ⟨0, h⟩).mpr rfl)
        (iblk m c 0 ⟨0, h⟩) (iblk m c 1 ⟨0, h⟩) (iblk m c 2 ⟨0, h⟩)).trans (scratch_of_blocks m c ⟨0, h⟩)
  | n + 1, h => by
    have hN : cfg0.N = 25 := N_0
    have hB : ¬(⟨n + 1, h⟩ : Fin cfg0.N).val % 25 = 0 := by dsimp only; omega
    have ih := outsAt_eq c n (Nat.lt_of_succ_lt h)
    rw [outsAt0_B m c ⟨n + 1, h⟩ hB]
    refine Prod.ext ?_ ?_
    · dsimp only
      refine (later_block c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _)
        (fun hc => hB ((hcond0_0 ⟨n + 1, h⟩).mp hc)) (iblk m c 0 ⟨n + 1, h⟩) (iblk m c 1 ⟨n + 1, h⟩) (iblk m c 2 ⟨n + 1, h⟩)
        (outsAt0 m c n (Nat.lt_of_succ_lt h)).2).trans ?_
      exact congrArg (blockOut (iblk m c 2 ⟨n + 1, h⟩ : Vec F S400x10000 .f32)) (congrArg Prod.snd ih)
    · dsimp only
      show (outsAt0 m c n (Nat.lt_of_succ_lt h)).2 = scratch m c
      exact congrArg Prod.snd ih

end AnyInstance

/-! ## The result array on the extended reals -/

section ExtendedReals

variable (m : (ℓ : Loc nD τ sig) → Buf (Elt Ideal) ℓ) (ρ : Dev nD → PrngReg)

/-- The layer of the launch contents of the three arguments. -/
abbrev layer (c : Dev nD) : Buf (Elt Ideal) ((c : Thread nD τ).loc main_v0) :=
  GraphConv.conv (m ((c : Thread nD τ).loc main_arg0)) (m ((c : Thread nD τ).loc main_arg1)) (m ((c : Thread nD τ).loc main_arg2))

/-- An entry of a point's block is the layer's entry at the row the block starts at plus the entry's row: stated
    over plain arrays, `tv` the point, `A` the adjacency block with its rows named in the adjacency `adj`. -/
theorem block_entry (x : Vec Ideal S10000x128 .f32) (adj : Vec Ideal S10000x10000 .f32) (W : Vec Ideal S128x128 .f32)
    (A : Vec Ideal S400x10000 .f32) (tv : ℕ)
    (hA : ∀ (p : Fin 400) (k : Fin 10000) (h : 400 * tv + p.val < 10000), A (ix2 p k) = adj (ix2 ⟨400 * tv + p.val, h⟩ k))
    (y : S400x128.Idx) (i : S10000x128.Idx) (h0 : (i 0).val = 400 * tv + (y 0).val) (h1 : (i 1).val = (y 1).val) :
    blockOut (F := Ideal) A (k0_pay2 x W) y = GraphConv.conv x adj W i := by
  obtain ⟨p, q, rfl⟩ : ∃ (p : Fin 400) (q : Fin 128), y = ix2 p q := ⟨y 0, y 1, eq_ix2 y⟩
  have h0' : (i 0).val = 400 * tv + p.val := h0
  have h1' : (i 1).val = q.val := h1
  have hi : (i 0).val < 10000 := (i 0).isLt
  have hp : 400 * tv + p.val < 10000 := by omega
  have ei0 : i 0 = ⟨400 * tv + p.val, hp⟩ := Fin.ext h0'
  have ei1 : i 1 = q := Fin.ext h1'
  rw [blockOut_apply]
  unfold GraphConv.conv
  rw [ei0, ei1]
  refine Finset.sum_congr rfl fun k _ => ?_
  rw [hA p k hp, scratch_apply]
  rfl

/-- What point `t` writes back is block `t` of the layer. -/
theorem flushed_eq (c : Dev nD) (t : Fin cfg0.N) :
    (dats m 0 c).flushed 3 t = ((cfg0.win 3).blk t).view.read (Elt Ideal) (layer m c) := by
  rw [Cert.KernelIdeal.Value.flushed3, outsAt_eq m c t.val t.isLt]
  obtain ⟨-, -, -, -, -, -, e6, e7⟩ := block_indices t
  funext j
  show blockOut (iblk m c 2 t : Vec Ideal S400x10000 .f32) (scratch m c) j = layer m c (((cfg0.win 3).blk t).view.emb j)
  exact block_entry (m ((c : Thread nD τ).loc main_arg0)) (m ((c : Thread nD τ).loc main_arg1)) (m ((c : Thread nD τ).loc main_arg2))
    (iblk m c 2 t) t.val (fun p k h => adjacency_block_apply m c t p k h) j (((cfg0.win 3).blk t).view.emb j)
    (by show win0_3.index t (0 : Fin 2) * 400 + 1 * (j 0).val = 400 * t.val + (j 0).val; omega)
    (by show win0_3.index t (1 : Fin 2) * 128 + 1 * (j 1).val = (j 1).val; omega)

/-- An index of the result array is in point `t`'s block iff each coordinate is in the block's range on its axis. -/
theorem mem_block (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Every index of the result array is in the block of the point its row falls to: row `r` in point `r / 400`'s. -/
theorem blocks_cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  have ht : (i 0).val / 400 < cfg0.N := by rw [hN]; omega
  obtain ⟨-, -, -, -, -, -, e6, e7⟩ := block_indices ⟨(i 0).val / 400, ht⟩
  have e6' : win0_3.index ⟨(i 0).val / 400, ht⟩ (0 : Fin 2) = (i 0).val / 400 := e6
  refine ⟨⟨(i 0).val / 400, ht⟩, flush0_3 _, ?_⟩
  rw [mem_block]
  intro a
  match a with
  | ⟨0, _⟩ =>
    show win0_3.index ⟨(i 0).val / 400, ht⟩ (0 : Fin 2) * 400 ≤ (i 0).val
      ∧ (i 0).val < win0_3.index ⟨(i 0).val / 400, ht⟩ (0 : Fin 2) * 400 + 400
    omega
  | ⟨1, _⟩ =>
    show win0_3.index ⟨(i 0).val / 400, ht⟩ (1 : Fin 2) * 128 ≤ (i 1).val
      ∧ (i 1).val < win0_3.index ⟨(i 0).val / 400, ht⟩ (1 : Fin 2) * 128 + 128
    omega

/-- So the result array ends holding the layer. -/
theorem final (c : Dev nD) : (dats m 0 c).arrAt 3 cfg0.N = layer m c :=
  (dats m 0 c).arrAt_eq_of_cover 3 (layer m c) (fun t _ => flushed_eq m c t) blocks_cover

/-- The run, read: every weakly fair execution terminates with the result array at the layer of the launch contents
    and the three arguments unchanged. -/
theorem run : θ_run defs (onTc (τ := τ) (main (F := Ideal))) ⟨m, fun _ => 0, ρ⟩ fun r => ∀ c : Dev nD,
      r.2.mem ((c : Thread nD τ).loc main_v0) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end ExtendedReals

end Cert.KernelIdeal.Sweep

end
-- ==== Proof.RefValue.lean ====
/-
  The reference, on the extended reals, is the layer: its two products `x · W` and `adj · (x · W)`, each read at an
  entry as the sum over its contracted coordinate, are the support matrix and the layer entry by entry.
-/
import proofs.«109923_g1580547973936_cont_week2b_921_18_alg».proof.Proof.Gen.ReferenceIdeal.Read
import proofs.«109923_g1580547973936_cont_week2b_921_18_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx

/-- The reference's result, as a function of its three arguments, is the layer. -/
theorem reference_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v1 (F := Ideal) x0 x1 x2 = GraphConv.conv x0 x1 x2 := by
  funext i
  rw [val_main_v1_apply]
  unfold GraphConv.conv
  refine Finset.sum_congr rfl fun k _ => ?_
  rw [val_main_v0_apply]
  unfold GraphConv.support
  have e1 : lidx_main_v1 i k = ix2 (i 0) k :=
    funext fun a => Fin.ext (by match a with | ⟨0, _⟩ => rfl | ⟨1, _⟩ => rfl)
  have e2 : ∀ d : Fin 128, lidx_main_v0 (ridx_main_v1 i k) d = ix2 k d := fun d =>
    funext fun a => Fin.ext (by match a with | ⟨0, _⟩ => rfl | ⟨1, _⟩ => rfl)
  have e3 : ∀ d : Fin 128, ridx_main_v0 (ridx_main_v1 i k) d = ix2 d (i 1) := fun d =>
    funext fun a => Fin.ext (by match a with | ⟨0, _⟩ => rfl | ⟨1, _⟩ => rfl)
  simp only [e1, e2, e3]
  rfl

end Cert.ReferenceIdeal.RefValue

end
-- ==== Proof.lean ====
/-
  A graph-convolution layer: the kernel computes `adj · (x · W)` block by block, the reference as two whole products.

  On the extended reals both are the same function of the three arguments, entry by entry:

      out[i, j] = ∑ₖ adj[i, k] · (∑_d x[k, d] · W[d, j]).

  The kernel forms the support matrix `x · W` once, at its first grid point, and keeps it; at each of its 25 points it
  multiplies 400 rows of the adjacency by the support matrix in eight column stretches and adds the partial products
  left to right. The only law needed to meet the reference's single sum over the 10000 columns is that a finite sum
  is the sum of its consecutive stretches — associativity of addition —, which holds at the infinities too, so the
  finiteness of the inputs is never used. The two programs multiply and add the same operands in the same order
  otherwise: no distributivity, no cancellation.

  The three run claims are the generated frames (the reference's is its run with the result dropped); the
  idealization rewrote nothing, so its claim is `True`; the value claim sets the kernel's run, read as the layer of
  its launch contents, beside the reference's run, read as the layer of arguments that agree.
-/
import proofs.«109923_g1580547973936_cont_week2b_921_18_alg».proof.Defs
import proofs.«109923_g1580547973936_cont_week2b_921_18_alg».proof.Proof.Gen.Kernel
import proofs.«109923_g1580547973936_cont_week2b_921_18_alg».proof.Proof.Gen.Kernel.Skeleton
import proofs.«109923_g1580547973936_cont_week2b_921_18_alg».proof.Proof.Gen.Kernel.Launch
import proofs.«109923_g1580547973936_cont_week2b_921_18_alg».proof.Proof.Gen.Kernel.Points
import proofs.«109923_g1580547973936_cont_week2b_921_18_alg».proof.Proof.Gen.Kernel.Frame
import proofs.«109923_g1580547973936_cont_week2b_921_18_alg».proof.Proof.Gen.KernelIdeal
import proofs.«109923_g1580547973936_cont_week2b_921_18_alg».proof.Proof.Gen.KernelIdeal.Skeleton
import proofs.«109923_g1580547973936_cont_week2b_921_18_alg».proof.Proof.Gen.KernelIdeal.Launch
import proofs.«109923_g1580547973936_cont_week2b_921_18_alg».proof.Proof.Gen.KernelIdeal.Points
import proofs.«109923_g1580547973936_cont_week2b_921_18_alg».proof.Proof.Gen.KernelIdeal.Frame
import proofs.«109923_g1580547973936_cont_week2b_921_18_alg».proof.Proof.Gen.ReferenceIdeal
import proofs.«109923_g1580547973936_cont_week2b_921_18_alg».proof.Proof.Gen.KernelIdeal.Value
import proofs.«109923_g1580547973936_cont_week2b_921_18_alg».proof.Proof.Gen.ReferenceIdeal.Run
import proofs.«109923_g1580547973936_cont_week2b_921_18_alg».proof.Proof.Gen.ReferenceIdeal.Read
import proofs.«109923_g1580547973936_cont_week2b_921_18_alg».proof.Proof.Gen.Pre_finite_inputs
import proofs.«109923_g1580547973936_cont_week2b_921_18_alg».proof.Proof.Sweep
import proofs.«109923_g1580547973936_cont_week2b_921_18_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals the kernel's result array ends at the layer of its launch contents, and the reference's at
    its two products of arguments that agree with them — the layer again. -/
theorem algebraic : Cert.algebraic_KernelIdeal_ReferenceIdeal := by
  intro m ρ m' ρ' _ hagree
  refine ⟨fun c => Cert.KernelIdeal.Sweep.layer m c, Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
